-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128x64 .f32) (main_arg9 : FVec F S64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128x64 .f32) (main_arg9 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S100000x64 .f32) (main_arg1 : IVec S2x1250000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x64 .f32) (main_arg9 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x64 : Shape := ⟨2, ![100000, 64]⟩
abbrev S2x1250000 : Shape := ⟨2, ![2, 1250000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S100000 : Shape := ⟨1, ![100000]⟩
abbrev S100000x1 : Shape := ⟨2, ![100000, 1]⟩
abbrev S64x128 : Shape := ⟨2, ![64, 128]⟩
abbrev S5000x64 : Shape := ⟨2, ![5000, 64]⟩
abbrev S5000x128 : Shape := ⟨2, ![5000, 128]⟩
abbrev S1x128 : Shape := ⟨2, ![1, 128]⟩
abbrev S1x64 : Shape := ⟨2, ![1, 64]⟩

abbrev nBuf : Space → Nat
  | .hbm => 42
  | .vmem => 15
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S1x1250000, .i32⟩
  | .hbm, ⟨11, _⟩ => ⟨S1250000, .i32⟩
  | .hbm, ⟨12, _⟩ => ⟨S1x1250000, .i32⟩
  | .hbm, ⟨13, _⟩ => ⟨S1250000, .i32⟩
  | .hbm, ⟨14, _⟩ => ⟨S_, .i32⟩
  | .hbm, ⟨15, _⟩ => ⟨S1250000, .i32⟩
  | .hbm, ⟨16, _⟩ => ⟨S1250000, .i1⟩
  | .hbm, ⟨17, _⟩ => ⟨S_, .i32⟩
  | .hbm, ⟨18, _⟩ => ⟨S1250000, .i32⟩
  | .hbm, ⟨19, _⟩ => ⟨S1250000, .i32⟩
  | .hbm, ⟨20, _⟩ => ⟨S1250000, .i32⟩
  | .hbm, ⟨21, _⟩ => ⟨S1250000x1, .i32⟩
  | .hbm, ⟨22, _⟩ => ⟨S1250000x64, .f32⟩
  | .hbm, ⟨23, _⟩ => ⟨S_, .f32⟩
  | .hbm, ⟨24, _⟩ => ⟨S100000x64, .f32⟩
  | .hbm, ⟨25, _⟩ => ⟨S1250000x1, .i32⟩
  | .hbm, ⟨26, _⟩ => ⟨S100000x64, .f32⟩
  | .hbm, ⟨27, _⟩ => ⟨S_, .f32⟩
  | .hbm, ⟨28, _⟩ => ⟨S1250000, .f32⟩
  | .hbm, ⟨29, _⟩ => ⟨S_, .f32⟩
  | .hbm, ⟨30, _⟩ => ⟨S100000, .f32⟩
  | .hbm, ⟨31, _⟩ => ⟨S1250000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x64, .f32⟩
  | .hbm, ⟨38, _⟩ => ⟨S100000x64, .f32⟩
  | .hbm, ⟨39, _⟩ => ⟨S64x128, .f32⟩
  | .hbm, ⟨40, _⟩ => ⟨S64x128, .f32⟩
  | .hbm, ⟨41, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S64x128, .f32⟩
  | .local _ .vmem, ⟨6, _⟩ => ⟨S128, .f32⟩
  | .local _ .vmem, ⟨7, _⟩ => ⟨S128x128, .f32⟩
  | .local _ .vmem, ⟨8, _⟩ => ⟨S128, .f32⟩
  | .local _ .vmem, ⟨9, _⟩ => ⟨S128x128, .f32⟩
  | .local _ .vmem, ⟨10, _⟩ => ⟨S128, .f32⟩
  | .local _ .vmem, ⟨11, _⟩ => ⟨S128x64, .f32⟩
  | .local _ .vmem, ⟨12, _⟩ => ⟨S64, .f32⟩
  | .local _ .vmem, ⟨13, _⟩ => ⟨S5000x64, .f32⟩
  | .local _ .vmem, ⟨14, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S5000x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  slices_S128x128_S64x128_0_0 : S128x128.Slices ![0, 0] S64x128
  slices_S128x128_S64x128_64_0 : S128x128.Slices ![64, 0] S64x128
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  scatter_S100000_S1250000x1_S1250000_n_0_0_1_wf : ScatterDims.WF S100000 S1250000x1 S1250000 [] [0] [0] 1
  dot_S5000x64_S64x128_S5000x128_1_0_0_1_n_n_wf : DotDims.WF S5000x64 S64x128 S5000x128 [1] [0] [0] [1] [] []
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x64.size a ≤ S128x64.size a
  hwx0_9 : ∀ i : grid0.Coords, EltTy.bits .f32 = 32 ∨ (Rect.block (s := S128x64) S128x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64.size a ≤ S64.size a
  hwx0_10 : ∀ i : grid0.Coords, EltTy.bits .f32 = 32 ∨ (Rect.block (s := S64) S64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S5000x64.size a ≤ S100000x64.size a
  hwx0_11 : ∀ i : grid0.Coords, EltTy.bits .f32 = 32 ∨ (Rect.block (s := S100000x64) S5000x64.size (cc0_transform_11 i) (hinb0_11 i)).WholeWords (EltTy.packing .f32)

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S128x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v25) S5000x64.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S100000 : Shape := ⟨1, ![100000]⟩
abbrev S100000x1 : Shape := ⟨2, ![100000, 1]⟩
abbrev S100000x128 : Shape := ⟨2, ![100000, 128]⟩
abbrev S1x128 : Shape := ⟨2, ![1, 128]⟩
abbrev S1x64 : Shape := ⟨2, ![1, 64]⟩

abbrev nBuf : Space → Nat
  | .hbm => 65
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S1x1250000, .i32⟩
  | .hbm, ⟨11, _⟩ => ⟨S1250000, .i32⟩
  | .hbm, ⟨12, _⟩ => ⟨S1x1250000, .i32⟩
  | .hbm, ⟨13, _⟩ => ⟨S1250000, .i32⟩
  | .hbm, ⟨14, _⟩ => ⟨S_, .i32⟩
  | .hbm, ⟨15, _⟩ => ⟨S1250000, .i32⟩
  | .hbm, ⟨16, _⟩ => ⟨S1250000, .i1⟩
  | .hbm, ⟨17, _⟩ => ⟨S_, .i32⟩
  | .hbm, ⟨18, _⟩ => ⟨S1250000, .i32⟩
  | .hbm, ⟨19, _⟩ => ⟨S1250000, .i32⟩
  | .hbm, ⟨20, _⟩ => ⟨S1250000, .i32⟩
  | .hbm, ⟨21, _⟩ => ⟨S1250000x1, .i32⟩
  | .hbm, ⟨22, _⟩ => ⟨S1250000x64, .f32⟩
  | .hbm, ⟨23, _⟩ => ⟨S_, .f32⟩
  | .hbm, ⟨24, _⟩ => ⟨S100000x64, .f32⟩
  | .hbm, ⟨25, _⟩ => ⟨S1250000x1, .i32⟩
  | .hbm, ⟨26, _⟩ => ⟨S100000x64, .f32⟩
  | .hbm, ⟨27, _⟩ => ⟨S_, .f32⟩
  | .hbm, ⟨28, _⟩ => ⟨S1250000, .f32⟩
  | .hbm, ⟨29, _⟩ => ⟨S_, .f32⟩
  | .hbm, ⟨30, _⟩ => ⟨S100000, .f32⟩
  | .hbm, ⟨31, _⟩ => ⟨S1250000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x64, .f32⟩
  | .hbm, ⟨38, _⟩ => ⟨S100000x64, .f32⟩
  | .hbm, ⟨39, _⟩ => ⟨S100000x128, .f32⟩
  | .hbm, ⟨40, _⟩ => ⟨S100000x128, .f32⟩
  | .hbm, ⟨41, _⟩ => ⟨S1x128, .f32⟩
  | .hbm, ⟨42, _⟩ => ⟨S100000x128, .f32⟩
  | .hbm, ⟨43, _⟩ => ⟨S100000x128, .f32⟩
  | .hbm, ⟨44, _⟩ => ⟨S_, .f32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S1x128, .f32⟩
  | .hbm, ⟨49, _⟩ => ⟨S100000x128, .f32⟩
  | .hbm, ⟨50, _⟩ => ⟨S100000x128, .f32⟩
  | .hbm, ⟨51, _⟩ => ⟨S_, .f32⟩
  | .hbm, ⟨52, _⟩ => ⟨S100000x128, .f32⟩
  | .hbm, ⟨53, _⟩ => ⟨S100000x128, .f32⟩
  | .hbm, ⟨54, _⟩ => ⟨S100000x128, .f32⟩
  | .hbm, ⟨55, _⟩ => ⟨S1x128, .f32⟩
  | .hbm, ⟨56, _⟩ => ⟨S100000x128, .f32⟩
  | .hbm, ⟨57, _⟩ => ⟨S100000x128, .f32⟩
  | .hbm, ⟨58, _⟩ => ⟨S_, .f32⟩
  | .hbm, ⟨59, _⟩ => ⟨S100000x128, .f32⟩
  | .hbm, ⟨60, _⟩ => ⟨S100000x128, .f32⟩
  | .hbm, ⟨61, _⟩ => ⟨S100000x64, .f32⟩
  | .hbm, ⟨62, _⟩ => ⟨S1x64, .f32⟩
  | .hbm, ⟨63, _⟩ => ⟨S100000x64, .f32⟩
  | .hbm, ⟨64, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_call0_cst : Ref sig .tc := ⟨.hbm, 44, rfl⟩
abbrev main_call0_v0 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_call1_cst : Ref sig .tc := ⟨.hbm, 51, rfl⟩
abbrev main_call1_v0 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_call2_cst : Ref sig .tc := ⟨.hbm, 58, rfl⟩
abbrev main_call2_v0 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  concatenates_S100000x64_S100000x64_S100000x128_d1 : Shape.Concatenates [S100000x64, S100000x64] S100000x128 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  scatter_S100000_S1250000x1_S1250000_n_0_0_1_wf : ScatterDims.WF S100000 S1250000x1 S1250000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.Spec.lean ====
/-
  The node MLP on the extended reals, one row at a time.

  For one node the network reads two rows of 64 numbers — the node's own features `xr` and the mean `ar` of its
  in-neighbours' features — and returns 64 numbers:

      h₁ = relu (xr · W1[0:64] + ar · W1[64:128] + b1)        (128 entries)
      h₂ = relu (h₁ · W2 + b2)                                 (128 entries)
      h₃ = relu (h₂ · W3 + b3)                                 (128 entries)
      out = h₃ · W4 + b4                                       (64 entries)

  Every `·` is a row times a matrix, `(h · W) j = ∑ k, h k * W (k, j)`, and `relu z = max z 0` with `0` spelt as the
  f32 word `0x00000000` that both programs write. The first layer is written with the 128 rows of `W1` already split
  into its upper and lower 64; `sum_lo_hi` is the law that a sum over 128 indices is the sum over the lower 64 plus
  the sum over the upper 64, which is what joins this to a product of the concatenated row `[xr, ar]` with all of `W1`.
  Only commutativity and associativity of `+` on the extended reals are used, so no entry needs to be finite.

  `G` is the whole result array: row `i` of the output is the row map above at row `i` of `x` and of `agg`.
-/
import Idealize.ShloMosaic.PureOps.Ideal
import Idealize.ShloMosaic.Lib.ValueIdx

noncomputable section

open scoped BigOperators

namespace Cert.NodeMLP

open Idealize.ShloMosaic Idealize.ShloMosaic.ValueIdx

/-- The shapes the function is stated over, as literals. -/
abbrev SNx64 : Shape := ⟨2, ![100000, 64]⟩
abbrev SW1 : Shape := ⟨2, ![128, 128]⟩
abbrev SW4 : Shape := ⟨2, ![128, 64]⟩
abbrev Sb128 : Shape := ⟨1, ![128]⟩
abbrev Sb64 : Shape := ⟨1, ![64]⟩

/-- The rectifier as both programs spell it: the larger of the value and the f32 word `0x00000000`. -/
def relu (z : EReal) : EReal := max z (Ideal.ofBits .f32 0x00000000#32)

/-- Index `k` of the lower half of 128. -/
def lo (k : Fin 64) : Fin 128 := ⟨k.val, by omega⟩
/-- Index `k` of the upper half of 128. -/
def hi (k : Fin 64) : Fin 128 := ⟨64 + k.val, by omega⟩

@[simp] theorem lo_val (k : Fin 64) : (lo k).val = k.val := rfl
@[simp] theorem hi_val (k : Fin 64) : (hi k).val = 64 + k.val := rfl

/-- A sum over 128 indices is the sum over the lower 64 plus the sum over the upper 64. -/
theorem sum_lo_hi {M : Type*} [AddCommMonoid M] (f : Fin 128 → M) :
    ∑ k : Fin 128, f k = ∑ k : Fin 64, f (lo k) + ∑ k : Fin 64, f (hi k) :=
  Fin.sum_univ_add (a := 64) (b := 64) f

/-- One dense layer on a row of 128: entry `j` of `h · W + b`. -/
def dense128 (h : Fin 128 → EReal) (W : SW1.Idx → EReal) (b : Sb128.Idx → EReal) (j : Fin 128) : EReal :=
  (∑ k : Fin 128, h k * W (ix2 k j)) + b (ix1 j)

/-- The last dense layer, 128 to 64: entry `q` of `h · W4 + b4`. -/
def dense64 (h : Fin 128 → EReal) (W : SW4.Idx → EReal) (b : Sb64.Idx → EReal) (q : Fin 64) : EReal :=
  (∑ k : Fin 128, h k * W (ix2 k q)) + b (ix1 q)

/-- The first layer before the rectifier, with `W1`'s rows split: `xr` meets rows 0–63, `ar` rows 64–127. -/
def pre1 (xr ar : Fin 64 → EReal) (W1 : SW1.Idx → EReal) (b1 : Sb128.Idx → EReal) (j : Fin 128) : EReal :=
  (∑ k : Fin 64, xr k * W1 (ix2 (lo k) j) + ∑ k : Fin 64, ar k * W1 (ix2 (hi k) j)) + b1 (ix1 j)

/-- The network on one node: from its feature row and its neighbours' mean row to its 64 outputs. -/
def rowOut (xr ar : Fin 64 → EReal) (W1 : SW1.Idx → EReal) (b1 : Sb128.Idx → EReal) (W2 : SW1.Idx → EReal) (b2 : Sb128.Idx → EReal)
    (W3 : SW1.Idx → EReal) (b3 : Sb128.Idx → EReal) (W4 : SW4.Idx → EReal) (b4 : Sb64.Idx → EReal) (q : Fin 64) : EReal :=
  dense64 (fun j => relu (dense128 (fun k => relu (dense128 (fun k' => relu (pre1 xr ar W1 b1 k')) W2 b2 k)) W3 b3 j)) W4 b4 q

/-- The whole result: output row `i` is the network on row `i` of `x` and row `i` of `agg`. -/
def G (x agg : SNx64.Idx → EReal) (W1 : SW1.Idx → EReal) (b1 : Sb128.Idx → EReal) (W2 : SW1.Idx → EReal) (b2 : Sb128.Idx → EReal)
    (W3 : SW1.Idx → EReal) (b3 : Sb128.Idx → EReal) (W4 : SW4.Idx → EReal) (b4 : Sb64.Idx → EReal) : SNx64.Idx → EReal :=
  fun idx =>
    let i : Fin 100000 := idx 0
    let q : Fin 64 := idx 1
    rowOut (fun k => x (ix2 i k)) (fun k => agg (ix2 i k)) W1 b1 W2 b2 W3 b3 W4 b4 q

/-- `G` at the index with coordinates `(i, q)`. -/
theorem G_apply (x agg : SNx64.Idx → EReal) (W1 : SW1.Idx → EReal) (b1 : Sb128.Idx → EReal) (W2 : SW1.Idx → EReal) (b2 : Sb128.Idx → EReal)
    (W3 : SW1.Idx → EReal) (b3 : Sb128.Idx → EReal) (W4 : SW4.Idx → EReal) (b4 : Sb64.Idx → EReal) (i : Fin 100000) (q : Fin 64) :
    G x agg W1 b1 W2 b2 W3 b3 W4 b4 (ix2 i q)
      = rowOut (fun k => x (ix2 i k)) (fun k => agg (ix2 i k)) W1 b1 W2 b2 W3 b3 W4 b4 q := rfl

end Cert.NodeMLP

end
-- ==== Proof.RefValue.lean ====
/-
  The reference's result array is the function `G` of the node MLP.

  Read one entry at a time, the reference multiplies row `i` of the 128-wide concatenation `[x, agg]` with `W1`: a sum over
  128 indices whose lower 64 terms read `x` against rows 0–63 of `W1` and whose upper 64 read `agg` against rows 64–127.
  Splitting the sum there (`sum_lo_hi`) gives the first layer in the split form; the three later layers are the same
  sums on both sides already. `agg` — the neighbours' mean, a gather, two scatter-adds and a division — is never opened:
  it is carried as the stage `val_main_v22`.
-/
import proofs.«167110_j7352984011301_1_alg».proof.Proof.Gen.ReferenceIdeal.Read
import proofs.«167110_j7352984011301_1_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx Cert.NodeMLP

variable (x0 : (⟨S100000x64, .f32⟩ : BufTy).Contents (Elt Ideal)) (x1 : (⟨S2x1250000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal))
  (x8 : (⟨S128x64, .f32⟩ : BufTy).Contents (Elt Ideal)) (x9 : (⟨S64, .f32⟩ : BufTy).Contents (Elt Ideal))

/-! ## Where each product reads its operands -/

theorem lidx24 (i : Fin 100000) (j k : Fin 128) : lidx_main_v24 (ix2 i j) k = ix2 i k := by
  funext a; match a with | ⟨0, _⟩ => rfl | ⟨1, _⟩ => rfl
theorem ridx24 (i : Fin 100000) (j k : Fin 128) : ridx_main_v24 (ix2 i j) k = ix2 k j := by
  funext a; match a with | ⟨0, _⟩ => rfl | ⟨1, _⟩ => rfl
theorem lidx29 (i : Fin 100000) (j k : Fin 128) : lidx_main_v29 (ix2 i j) k = ix2 i k := by
  funext a; match a with | ⟨0, _⟩ => rfl | ⟨1, _⟩ => rfl
theorem ridx29 (i : Fin 100000) (j k : Fin 128) : ridx_main_v29 (ix2 i j) k = ix2 k j := by
  funext a; match a with | ⟨0, _⟩ => rfl | ⟨1, _⟩ => rfl
theorem lidx34 (i : Fin 100000) (j k : Fin 128) : lidx_main_v34 (ix2 i j) k = ix2 i k := by
  funext a; match a with | ⟨0, _⟩ => rfl | ⟨1, _⟩ => rfl
theorem ridx34 (i : Fin 100000) (j k : Fin 128) : ridx_main_v34 (ix2 i j) k = ix2 k j := by
  funext a; match a with | ⟨0, _⟩ => rfl | ⟨1, _⟩ => rfl
theorem lidx39 (i : Fin 100000) (q : Fin 64) (k : Fin 128) : lidx_main_v39 (ix2 i q) k = ix2 i k := by
  funext a; match a with | ⟨0, _⟩ => rfl | ⟨1, _⟩ => rfl
theorem ridx39 (i : Fin 100000) (q : Fin 64) (k : Fin 128) : ridx_main_v39 (ix2 i q) k = ix2 k q := by
  funext a; match a with | ⟨0, _⟩ => rfl | ⟨1, _⟩ => rfl

/-- A bias row broadcast over the nodes is read at its column. -/
theorem bias26 (i : Fin 100000) (j : Fin 128) : idx_main_v25 (idx_main_v26 (ix2 i j)) = ix1 j := by
  funext a; match a with | ⟨0, _⟩ => rfl
theorem bias31 (i : Fin 100000) (j : Fin 128) : idx_main_v30 (idx_main_v31 (ix2 i j)) = ix1 j := by
  funext a; match a with | ⟨0, _⟩ => rfl
theorem bias36 (i : Fin 100000) (j : Fin 128) : idx_main_v35 (idx_main_v36 (ix2 i j)) = ix1 j := by
  funext a; match a with | ⟨0, _⟩ => rfl
theorem bias41 (i : Fin 100000) (q : Fin 64) : idx_main_v40 (idx_main_v41 (ix2 i q)) = ix1 q := by
  funext a; match a with | ⟨0, _⟩ => rfl

/-! ## The concatenated row -/

/-- Columns 0–63 of `[x, agg]` are `x`. -/
theorem cat_lo (i : Fin 100000) (k : Fin 64) : val_main_v23 (F := Ideal) x0 x1 (ix2 i (lo k)) = x0 (ix2 i k) := by
  unfold val_main_v23
  exact concatenate_pair_apply_left _ x0 (val_main_v22 (F := Ideal) x0 x1) concatenates_S100000x64_S100000x64_S100000x128_d1
    (ix2 i (lo k)) rfl (ix2 i k) (fun b => match b with | ⟨0, _⟩ => rfl | ⟨1, _⟩ => rfl)

/-- Columns 64–127 of `[x, agg]` are `agg`. -/
theorem cat_hi (i : Fin 100000) (k : Fin 64) :
    val_main_v23 (F := Ideal) x0 x1 (ix2 i (hi k)) = val_main_v22 (F := Ideal) x0 x1 (ix2 i k) := by
  unfold val_main_v23
  exact concatenate_pair_apply_right _ x0 (val_main_v22 (F := Ideal) x0 x1) concatenates_S100000x64_S100000x64_S100000x128_d1
    (ix2 i (hi k)) rfl rfl (ix2 i k)
    (fun b hb => match b, hb with | ⟨0, _⟩, _ => rfl | ⟨1, _⟩, hb => absurd rfl hb)
    (by show k.val + 64 = 64 + k.val; omega)

/-! ## The layers -/

/-- The first layer before its rectifier: the product of `[x, agg]` with `W1`, split at column 64. -/
theorem layer1 (i : Fin 100000) (j : Fin 128) :
    val_main_v27 (F := Ideal) x0 x1 x2 x3 (ix2 i j)
      = pre1 (fun k => x0 (ix2 i k)) (fun k => val_main_v22 (F := Ideal) x0 x1 (ix2 i k)) x2 x3 j := by
  rw [val_main_v27_apply, val_main_v24_apply, val_main_v26_apply, val_main_v25_apply, sum_lo_hi]
  simp only [lidx24, ridx24, cat_lo, cat_hi, bias26]
  rfl

/-- Each `relu` call of the reference is the rectifier: the larger of its argument and the broadcast word `0x00000000`. -/
theorem relu_call0 (z : EReal) (idx : S100000x128.Idx) :
    FloatOps.maximumf (F := Ideal) (φ := .f32) z (val_main_call0_v0 (F := Ideal) idx) = relu z := by
  rw [val_main_call0_v0_apply]; rfl
theorem relu_call1 (z : EReal) (idx : S100000x128.Idx) :
    FloatOps.maximumf (F := Ideal) (φ := .f32) z (val_main_call1_v0 (F := Ideal) idx) = relu z := by
  rw [val_main_call1_v0_apply]; rfl
theorem relu_call2 (z : EReal) (idx : S100000x128.Idx) :
    FloatOps.maximumf (F := Ideal) (φ := .f32) z (val_main_call2_v0 (F := Ideal) idx) = relu z := by
  rw [val_main_call2_v0_apply]; rfl

/-- The second layer before its rectifier. -/
theorem layer2 (i : Fin 100000) (j : Fin 128) :
    val_main_v32 (F := Ideal) x0 x1 x2 x3 x4 x5 (ix2 i j)
      = dense128 (fun k => relu (val_main_v27 (F := Ideal) x0 x1 x2 x3 (ix2 i k))) x4 x5 j := by
  rw [val_main_v32_apply, val_main_v29_apply, val_main_v31_apply, val_main_v30_apply]
  simp only [lidx29, ridx29, bias31, val_main_v28_apply, relu_call0]
  rfl

/-- The third layer before its rectifier. -/
theorem layer3 (i : Fin 100000) (j : Fin 128) :
    val_main_v37 (F := Ideal) x0 x1 x2 x3 x4 x5 x6 x7 (ix2 i j)
      = dense128 (fun k => relu (val_main_v32 (F := Ideal) x0 x1 x2 x3 x4 x5 (ix2 i k))) x6 x7 j := by
  rw [val_main_v37_apply, val_main_v34_apply, val_main_v36_apply, val_main_v35_apply]
  simp only [lidx34, ridx34, bias36, val_main_v33_apply, relu_call1]
  rfl

/-- The output layer. -/
theorem layer4 (i : Fin 100000) (q : Fin 64) :
    val_main_v42 (F := Ideal) x0 x1 x2 x3 x4 x5 x6 x7 x8 x9 (ix2 i q)
      = dense64 (fun k => relu (val_main_v37 (F := Ideal) x0 x1 x2 x3 x4 x5 x6 x7 (ix2 i k))) x8 x9 q := by
  rw [val_main_v42_apply, val_main_v39_apply, val_main_v41_apply, val_main_v40_apply]
  simp only [lidx39, ridx39, bias41, val_main_v38_apply, relu_call2]
  rfl

/-! ## The whole array -/

/-- The reference's result is `G` of `x`, the neighbours' mean, and the eight parameter arrays. -/
theorem result_eq :
    val_main_v42 (F := Ideal) x0 x1 x2 x3 x4 x5 x6 x7 x8 x9
      = G x0 (val_main_v22 (F := Ideal) x0 x1) x2 x3 x4 x5 x6 x7 x8 x9 := by
  funext idx
  obtain ⟨i, q, rfl⟩ : ∃ (i : Fin 100000) (q : Fin 64), idx = ix2 i q := ⟨idx 0, idx 1, eq_ix2 idx⟩
  rw [G_apply, layer4]
  unfold rowOut
  simp only [layer3, layer2, layer1]

end Cert.ReferenceIdeal.RefValue

end
-- ==== Proof.KernelPayload.lean ====
/-
  The kernel body's arithmetic, read at one entry of its output block.

  The body loads a block of 5000 rows of `x` and of `agg`, the two halves of `W1` and the other parameters whole, and
  stores one 5000×64 block. Entry `(p, q)` of that block depends on row `p` of the two row blocks only: each of the four
  matrix products into a zero accumulator is, at an entry, the sum over the contracted index of the operands' products;
  a bias is read at its column whatever the row; a change of float format is the identity on the extended reals. So the
  entry is the node MLP (`rowOut`) at row `p` of the blocks, with the first layer's two products — one against each half
  of `W1` — already in the split form.
-/
import proofs.«167110_j7352984011301_1_alg».proof.Proof.Gen.KernelIdeal.Skeleton
import proofs.«167110_j7352984011301_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Cert.KernelIdeal Cert.KernelIdeal.Gen Idealize.ShloMosaic Idealize.ShloMosaic.ValueIdx Cert.NodeMLP

/-! ## The matrix products at an entry -/

theorem mm_first_l0 (i : S5000x128.Idx) (q : dot_S5000x64_S64x128_S5000x128_1_0_0_1_n_n.contr.Idx) : (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
theorem mm_first_r1 (i : S5000x128.Idx) (q : dot_S5000x64_S64x128_S5000x128_1_0_0_1_n_n.contr.Idx) : (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl
/-- A 5000×64 block times a 64×128 half of `W1`, into zeros: at `(p, j)` the sum over the 64 shared indices. -/
theorem mm_first (l : FVec Ideal S5000x64 .bf16) (r : FVec Ideal S64x128 .bf16) (p : Fin 5000) (j : Fin 128) :
    matmul (F := Ideal) dot_S5000x64_S64x128_S5000x128_1_0_0_1_n_n none l r (constant (F := Ideal) S5000x128 .f32 0x00000000#32) (ix2 p j)
      = ∑ k : Fin 64, l (ix2 p k) * r (ix2 k j) := by
  simp only [matmul]
  rw [Ideal.matmul_constant_zero_apply, ← Equiv.sum_comp (contrEquiv1 dot_S5000x64_S64x128_S5000x128_1_0_0_1_n_n 64 rfl rfl).symm]
  refine Finset.sum_congr rfl fun k _ => ?_
  have hk := contrEquiv1_symm_val dot_S5000x64_S64x128_S5000x128_1_0_0_1_n_n 64 rfl rfl k
  have el : dot_S5000x64_S64x128_S5000x128_1_0_0_1_n_n.lhsIdx (ix2 p j) ((contrEquiv1 dot_S5000x64_S64x128_S5000x128_1_0_0_1_n_n 64 rfl rfl).symm k) = ix2 p k := funext fun a => Fin.ext (by
    match a with
    | ⟨0, _⟩ => exact mm_first_l0 _ _
    | ⟨1, _⟩ => exact (dot_S5000x64_S64x128_S5000x128_1_0_0_1_n_n.lhsIdx_val_of_single rfl _ _).trans hk)
  have er : dot_S5000x64_S64x128_S5000x128_1_0_0_1_n_n.rhsIdx (ix2 p j) ((contrEquiv1 dot_S5000x64_S64x128_S5000x128_1_0_0_1_n_n 64 rfl rfl).symm k) = ix2 k j := funext fun a => Fin.ext (by
    match a with
    | ⟨0, _⟩ => exact (dot_S5000x64_S64x128_S5000x128_1_0_0_1_n_n.rhsIdx_val_of_single rfl _ _).trans hk
    | ⟨1, _⟩ => exact mm_first_r1 _ _)
  rw [el, er]

theorem mm_mid_l0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem mm_mid_r1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl
/-- A 5000×128 block of activations times a 128×128 matrix, into zeros: at `(p, j)` the sum over the 128 shared indices. -/
theorem mm_mid (l : FVec Ideal S5000x128 .bf16) (r : FVec Ideal S128x128 .bf16) (p : Fin 5000) (j : Fin 128) :
    matmul (F := Ideal) dot_S5000x128_S128x128_S5000x128_1_0_0_1_n_n none l r (constant (F := Ideal) S5000x128 .f32 0x00000000#32) (ix2 p j)
      = ∑ k : Fin 128, l (ix2 p k) * r (ix2 k j) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p j) ((contrEquiv1 dot_S5000x128_S128x128_S5000x128_1_0_0_1_n_n 128 rfl rfl).symm k) = ix2 p k := funext fun a => Fin.ext (by
    match a with
    | ⟨0, _⟩ => exact mm_mid_l0 _ _
    | ⟨1, _⟩ => exact (dot_S5000x128_S128x128_S5000x128_1_0_0_1_n_n.lhsIdx_val_of_single rfl _ _).trans hk)
  have er : dot_S5000x128_S128x128_S5000x128_1_0_0_1_n_n.rhsIdx (ix2 p j) ((contrEquiv1 dot_S5000x128_S128x128_S5000x128_1_0_0_1_n_n 128 rfl rfl).symm k) = ix2 k j := funext fun a => Fin.ext (by
    match a with
    | ⟨0, _⟩ => exact (dot_S5000x128_S128x128_S5000x128_1_0_0_1_n_n.rhsIdx_val_of_single rfl _ _).trans hk
    | ⟨1, _⟩ => exact mm_mid_r1 _ _)
  rw [el, er]

theorem mm_last_l0 (i : S5000x64.Idx) (q : dot_S5000x128_S128x64_S5000x64_1_0_0_1_n_n.contr.Idx) : (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem mm_last_r1 (i : S5000x64.Idx) (q : dot_S5000x128_S128x64_S5000x64_1_0_0_1_n_n.contr.Idx) : (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl
/-- A 5000×128 block of activations times the 128×64 output matrix, into zeros: at `(p, q)` the sum over the 128 shared indices. -/
theorem mm_last (l : FVec Ideal S5000x128 .bf16) (r : FVec Ideal S128x64 .bf16) (p : Fin 5000) (j : Fin 64) :
    matmul (F := Ideal) dot_S5000x128_S128x64_S5000x64_1_0_0_1_n_n none l r (constant (F := Ideal) S5000x64 .f32 0x00000000#32) (ix2 p j)
      = ∑ k : Fin 128, l (ix2 p k) * r (ix2 k j) := by
  simp only [matmul]
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p j) ((contrEquiv1 dot_S5000x128_S128x64_S5000x64_1_0_0_1_n_n 128 rfl rfl).symm k) = ix2 p k := funext fun a => Fin.ext (by
    match a with
    | ⟨0, _⟩ => exact mm_last_l0 _ _
    | ⟨1, _⟩ => exact (dot_S5000x128_S128x64_S5000x64_1_0_0_1_n_n.lhsIdx_val_of_single rfl _ _).trans hk)
  have er : dot_S5000x128_S128x64_S5000x64_1_0_0_1_n_n.rhsIdx (ix2 p j) ((contrEquiv1 dot_S5000x128_S128x64_S5000x64_1_0_0_1_n_n 128 rfl rfl).symm k) = ix2 k j := funext fun a => Fin.ext (by
    match a with
    | ⟨0, _⟩ => exact (dot_S5000x128_S128x64_S5000x64_1_0_0_1_n_n.rhsIdx_val_of_single rfl _ _).trans hk
    | ⟨1, _⟩ => exact mm_last_r1 _ _)
  rw [el, er]

/-! ## The bias rows -/

/-- A 128-vector laid out as one row and repeated down 5000 rows reads, at `(p, j)`, its entry `j`. -/
theorem bias_row128 (b : FVec Ideal S128 .f32) (p : Fin 5000) (j : Fin 128) :
    broadcastTo S5000x128 (shapeCast S1x128 b shapeCasts_S128_S1x128) broadcasts_S1x128_S5000x128 (ix2 p j) = b (ix1 j) := by
  rw [broadcastTo_1b_ab_apply, shapeCast_a_1a_apply]

/-- A 64-vector laid out as one row and repeated down 5000 rows reads, at `(p, q)`, its entry `q`. -/
theorem bias_row64 (b : FVec Ideal S64 .f32) (p : Fin 5000) (q : Fin 64) :
    broadcastTo S5000x64 (shapeCast S1x64 b shapeCasts_S64_S1x64) broadcasts_S1x64_S5000x64 (ix2 p q) = b (ix1 q) := by
  rw [broadcastTo_1b_ab_apply, shapeCast_a_1a_apply]

/-! ## The stored block at an entry -/

/-- Entry `(p, q)` of the block the body stores is the node MLP on row `p` of the two row blocks. The hypotheses name
    what the loaded blocks are at the coordinates the entry reads: row `p` of the feature block is `xr`, row `p` of the
    neighbours' block is `ar`, and the two 64×128 blocks are the lower and upper 64 rows of one 128×128 array `W1`. -/
theorem payload_apply (v0 v2 : FVec Ideal S5000x64 .f32) (v5 v8 : FVec Ideal S64x128 .f32) (v14 : FVec Ideal S128 .f32)
    (v20 : FVec Ideal S128x128 .f32) (v24 : FVec Ideal S128 .f32) (v30 : FVec Ideal S128x128 .f32) (v34 : FVec Ideal S128 .f32)
    (v40 : FVec Ideal S128x64 .f32) (v44 : FVec Ideal S64 .f32) (p : Fin 5000) (q : Fin 64)
    (xr ar : Fin 64 → EReal) (W1 : SW1.Idx → EReal)
    (hx : ∀ k : Fin 64, v0 (ix2 p k) = xr k) (ha : ∀ k : Fin 64, v2 (ix2 p k) = ar k)
    (hlo : ∀ (k : Fin 64) (j : Fin 128), v5 (ix2 k j) = W1 (ix2 (lo k) j))
    (hhi : ∀ (k : Fin 64) (j : Fin 128), v8 (ix2 k j) = W1 (ix2 (hi k) j)) :
    k0_pay1 (F := Ideal) (k0_pay2 (F := Ideal) v0 v2 v5 v8 v14 v20 v24 v30 v34) v40 v44 (ix2 p q)
      = rowOut xr ar W1 v14 v20 v24 v30 v34 v40 v44 q := by
  unfold k0_pay1 k0_pay2 rowOut dense64 dense128 pre1 relu
  simp only [addf_apply, maximumf_apply, broadcast_apply, truncf_apply, mm_first, mm_mid, mm_last, bias_row128, bias_row64,
    shapeCast_self, hx, ha, hlo, hhi]
  rfl

end Cert.KernelIdeal.Hand

end
-- ==== Proof.KernelHead.lean ====
/-
  What the region finds in the three arrays that host operations write before it.

  `agg`, the mean of each node's in-neighbours' feature rows, is computed before the region by the same host operations,
  in the same order and over the same literals, as in the reference: a gather of the rows of `x` at the edges' source
  nodes, a scatter-add of them at the edges' target nodes, a scatter-add of ones for the in-degree, a maximum with one,
  a division. So the array the region finds is the reference's stage of that name at the same two arguments; it is
  never opened. The two 64×128 arrays are the rows 0–63 and 64–127 of `W1`.
-/
import proofs.«167110_j7352984011301_1_alg».proof.Proof.Gen.KernelIdeal.Frame
import proofs.«167110_j7352984011301_1_alg».proof.Proof.Gen.ReferenceIdeal.Read
import proofs.«167110_j7352984011301_1_alg».proof.Proof.Spec
import Idealize.ShloMosaic.Lib.StableHlo.Run
import Idealize.ShloMosaic.Lib.ValueIdx
import Idealize.ShloMosaic.Lib.ValueLayout

noncomputable section

namespace Cert.KernelIdeal.Hand

open Cert.KernelIdeal Cert.KernelIdeal.Gen Idealize.ShloMosaic Idealize.ShloMosaic.TcCoe Idealize.SL.Sem
open Idealize.ShloMosaic.StableHlo Idealize.ShloMosaic.ValueIdx Cert.NodeMLP

variable (m : (ℓ : Loc nD τ sig) → Buf (Elt Ideal) ℓ)

/-- The neighbours' mean as the region finds it is the reference's stage of it, of the same `x` and edge list. -/
theorem V_agg (c : Dev nD) :
    (V m c main_v22 : S100000x64.Idx → EReal)
      = Cert.ReferenceIdeal.Read.val_main_v22 (F := Ideal) (m ((c : Thread nD τ).loc main_arg0)) (m ((c : Thread nD τ).loc main_arg1)) := by
  dsimp only [Gen.V, Gen.hostOps0]
  after_results_simp
  rfl

/-- The first 64×128 array the region is given is `W1` cut at rows 0–63. -/
theorem V_w1_lo (c : Dev nD) :
    (V m c main_v23 : S64x128.Idx → EReal)
      = extractStridedSlice S64x128 ![0, 0] (m ((c : Thread nD τ).loc main_arg2) : S128x128.Idx → EReal) slices_S128x128_S64x128_0_0 := by
  dsimp only [Gen.V, Gen.hostOps0]
  after_results_simp

/-- The second is `W1` cut at rows 64–127. -/
theorem V_w1_hi (c : Dev nD) :
    (V m c main_v24 : S64x128.Idx → EReal)
      = extractStridedSlice S64x128 ![64, 0] (m ((c : Thread nD τ).loc main_arg2) : S128x128.Idx → EReal) slices_S128x128_S64x128_64_0 := by
  dsimp only [Gen.V, Gen.hostOps0]
  after_results_simp

/-- Entry `(k, j)` of the lower cut is entry `(k, j)` of `W1`. -/
theorem V_w1_lo_apply (c : Dev nD) (k : Fin 64) (j : Fin 128) :
    (V m c main_v23 : S64x128.Idx → EReal) (ix2 k j) = (m ((c : Thread nD τ).loc main_arg2) : S128x128.Idx → EReal) (ix2 (lo k) j) := by
  rw [V_w1_lo]
  exact slice2_axis0_apply 0 _ _ k j (lo k) (by show k.val = 0 + k.val; omega)

/-- Entry `(k, j)` of the upper cut is entry `(64 + k, j)` of `W1`. -/
theorem V_w1_hi_apply (c : Dev nD) (k : Fin 64) (j : Fin 128) :
    (V m c main_v24 : S64x128.Idx → EReal) (ix2 k j) = (m ((c : Thread nD τ).loc main_arg2) : S128x128.Idx → EReal) (ix2 (hi k) j) := by
  rw [V_w1_hi]
  exact slice2_axis0_apply 64 _ _ k j (hi k) rfl

end Cert.KernelIdeal.Hand

end
-- ==== Proof.KernelBlocks.lean ====
/-
  The blocks a grid point is given.

  The grid has 20 points. Point `t` is given rows `5000·t … 5000·t + 4999` of `x` and of `agg` (all 64 columns), and every
  parameter array whole: the two halves of `W1`, then `b1`, `W2`, `b2`, `W3`, `b3`, `W4`, `b4`. First each window's block is
  read, through the window, off an ARBITRARY array of the window's shape — pure index arithmetic: a block's coordinate
  is the block index times the block extent plus the coordinate inside the block —; then the array is taken to be what
  the region finds there.
-/
import proofs.«167110_j7352984011301_1_alg».proof.Proof.Gen.KernelIdeal.Frame
import proofs.«167110_j7352984011301_1_alg».proof.Proof.KernelHead
import proofs.«167110_j7352984011301_1_alg».proof.Proof.Spec
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx Cert.NodeMLP

/-! ## Which block each window holds at a point -/

/-- The three row windows are at block `t` of the rows and block 0 of the columns. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_11.index t (0 : Fin 2) = t.val ∧ win0_11.index t (1 : Fin 2) = 0 :=
  (by decide +kernel : ∀ t : Fin grid0.N, _)

/-- Every parameter window is at its one block. -/
theorem idx_params : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = 0 ∧ win0_9.index t (1 : Fin 2) = 0
    ∧ win0_10.index t (0 : Fin 1) = 0 :=
  (by decide +kernel : ∀ t : Fin grid0.N, _)

/-! ## A block read off any array of the window's shape -/

/-- Entry `(p, k)` of window 0's block at point `t` is entry `(5000·t + p, k)` of the array. -/
theorem read_rows0 (t : Fin cfg0.N) (A : S100000x64.Idx → EReal) (p : Fin 5000) (k : Fin 64) (i : Fin 100000)
    (hi : i.val = 5000 * t.val + p.val) :
    (((cfg0.win 0).blk t).view.read (Elt Ideal) A : S5000x64.Idx → EReal) (ix2 p k) = A (ix2 i k) := by
  rw [View.read_apply]
  show A _ = A (ix2 i k)
  refine congrArg A (funext fun a => Fin.ext ?_)
  match a with
  | ⟨0, _⟩ => show win0_0.index t (0 : Fin 2) * 5000 + 1 * p.val = i.val; rw [(idx_rows t).1, hi]; omega
  | ⟨1, _⟩ => show win0_0.index t (1 : Fin 2) * 64 + 1 * k.val = k.val; rw [(idx_rows t).2.1]; omega

/-- Entry `(p, k)` of window 1's block at point `t` is entry `(5000·t + p, k)` of the array. -/
theorem read_rows1 (t : Fin cfg0.N) (A : S100000x64.Idx → EReal) (p : Fin 5000) (k : Fin 64) (i : Fin 100000)
    (hi : i.val = 5000 * t.val + p.val) :
    (((cfg0.win 1).blk t).view.read (Elt Ideal) A : S5000x64.Idx → EReal) (ix2 p k) = A (ix2 i k) := by
  rw [View.read_apply]
  show A _ = A (ix2 i k)
  refine congrArg A (funext fun a => Fin.ext ?_)
  match a with
  | ⟨0, _⟩ => show win0_1.index t (0 : Fin 2) * 5000 + 1 * p.val = i.val; rw [(idx_rows t).2.2.1, hi]; omega
  | ⟨1, _⟩ => show win0_1.index t (1 : Fin 2) * 64 + 1 * k.val = k.val; rw [(idx_rows t).2.2.2.1]; omega

/-- Window 2's block is its whole 64×128 array. -/
theorem read_half2 (t : Fin cfg0.N) (A : S64x128.Idx → EReal) :
    (((cfg0.win 2).blk t).view.read (Elt Ideal) A : S64x128.Idx → EReal) = A := by
  funext y
  rw [View.read_apply]
  show A _ = A y
  refine congrArg A (funext fun a => Fin.ext ?_)
  match a with
  | ⟨0, _⟩ => show win0_2.index t (0 : Fin 2) * 64 + 1 * (y 0).val = (y 0).val; rw [(idx_params t).1]; omega
  | ⟨1, _⟩ => show win0_2.index t (1 : Fin 2) * 128 + 1 * (y 1).val = (y 1).val; rw [(idx_params t).2.1]; omega

/-- Window 3's block is its whole 64×128 array. -/
theorem read_half3 (t : Fin cfg0.N) (A : S64x128.Idx → EReal) :
    (((cfg0.win 3).blk t).view.read (Elt Ideal) A : S64x128.Idx → EReal) = A := by
  funext y
  rw [View.read_apply]
  show A _ = A y
  refine congrArg A (funext fun a => Fin.ext ?_)
  match a with
  | ⟨0, _⟩ => show win0_3.index t (0 : Fin 2) * 64 + 1 * (y 0).val = (y 0).val; rw [(idx_params t).2.2.1]; omega
  | ⟨1, _⟩ => show win0_3.index t (1 : Fin 2) * 128 + 1 * (y 1).val = (y 1).val; rw [(idx_params t).2.2.2.1]; omega

/-- Window 4's block is its whole array. -/
theorem read_whole4 (t : Fin cfg0.N) (A : S128.Idx → EReal) :
    (((cfg0.win 4).blk t).view.read (Elt Ideal) A : S128.Idx → EReal) = A := by
  funext y
  rw [View.read_apply]
  show A _ = A y
  refine congrArg A (funext fun a => Fin.ext ?_)
  match a with
  | ⟨0, _⟩ => show win0_4.index t (0 : Fin 1) * 128 + 1 * (y 0).val = (y 0).val; rw [(idx_params t).2.2.2.2.1]; omega

/-- Window 5's block is its whole array. -/
theorem read_whole5 (t : Fin cfg0.N) (A : S128x128.Idx → EReal) :
    (((cfg0.win 5).blk t).view.read (Elt Ideal) A : S128x128.Idx → EReal) = A := by
  funext y
  rw [View.read_apply]
  show A _ = A y
  refine congrArg A (funext fun a => Fin.ext ?_)
  match a with
  | ⟨0, _⟩ => show win0_5.index t (0 : Fin 2) * 128 + 1 * (y 0).val = (y 0).val; rw [(idx_params t).2.2.2.2.2.1]; omega
  | ⟨1, _⟩ => show win0_5.index t (1 : Fin 2) * 128 + 1 * (y 1).val = (y 1).val; rw [(idx_params t).2.2.2.2.2.2.1]; omega

/-- Window 6's block is its whole array. -/
theorem read_whole6 (t : Fin cfg0.N) (A : S128.Idx → EReal) :
    (((cfg0.win 6).blk t).view.read (Elt Ideal) A : S128.Idx → EReal) = A := by
  funext y
  rw [View.read_apply]
  show A _ = A y
  refine congrArg A (funext fun a => Fin.ext ?_)
  match a with
  | ⟨0, _⟩ => show win0_6.index t (0 : Fin 1) * 128 + 1 * (y 0).val = (y 0).val; rw [(idx_params t).2.2.2.2.2.2.2.1]; omega

/-- Window 7's block is its whole array. -/
theorem read_whole7 (t : Fin cfg0.N) (A : S128x128.Idx → EReal) :
    (((cfg0.win 7).blk t).view.read (Elt Ideal) A : S128x128.Idx → EReal) = A := by
  funext y
  rw [View.read_apply]
  show A _ = A y
  refine congrArg A (funext fun a => Fin.ext ?_)
  match a with
  | ⟨0, _⟩ => show win0_7.index t (0 : Fin 2) * 128 + 1 * (y 0).val = (y 0).val; rw [(idx_params t).2.2.2.2.2.2.2.2.1]; omega
  | ⟨1, _⟩ => show win0_7.index t (1 : Fin 2) * 128 + 1 * (y 1).val = (y 1).val; rw [(idx_params t).2.2.2.2.2.2.2.2.2.1]; omega

/-- Window 8's block is its whole array. -/
theorem read_whole8 (t : Fin cfg0.N) (A : S128.Idx → EReal) :
    (((cfg0.win 8).blk t).view.read (Elt Ideal) A : S128.Idx → EReal) = A := by
  funext y
  rw [View.read_apply]
  show A _ = A y
  refine congrArg A (funext fun a => Fin.ext ?_)
  match a with
  | ⟨0, _⟩ => show win0_8.index t (0 : Fin 1) * 128 + 1 * (y 0).val = (y 0).val; rw [(idx_params t).2.2.2.2.2.2.2.2.2.2.1]; omega

/-- Window 9's block is its whole array. -/
theorem read_whole9 (t : Fin cfg0.N) (A : S128x64.Idx → EReal) :
    (((cfg0.win 9).blk t).view.read (Elt Ideal) A : S128x64.Idx → EReal) = A := by
  funext y
  rw [View.read_apply]
  show A _ = A y
  refine congrArg A (funext fun a => Fin.ext ?_)
  match a with
  | ⟨0, _⟩ => show win0_9.index t (0 : Fin 2) * 128 + 1 * (y 0).val = (y 0).val; rw [(idx_params t).2.2.2.2.2.2.2.2.2.2.2.1]; omega
  | ⟨1, _⟩ => show win0_9.index t (1 : Fin 2) * 64 + 1 * (y 1).val = (y 1).val; rw [(idx_params t).2.2.2.2.2.2.2.2.2.2.2.2.1]; omega

/-- Window 10's block is its whole array. -/
theorem read_whole10 (t : Fin cfg0.N) (A : S64.Idx → EReal) :
    (((cfg0.win 10).blk t).view.read (Elt Ideal) A : S64.Idx → EReal) = A := by
  funext y
  rw [View.read_apply]
  show A _ = A y
  refine congrArg A (funext fun a => Fin.ext ?_)
  match a with
  | ⟨0, _⟩ => show win0_10.index t (0 : Fin 1) * 64 + 1 * (y 0).val = (y 0).val; rw [(idx_params t).2.2.2.2.2.2.2.2.2.2.2.2.2]; omega

end Cert.KernelIdeal.Hand

end
-- ==== Proof.KernelValue.lean ====
/-
  From the blocks the grid points write to the whole result array.

  Point `t` of the grid writes rows `5000·t … 5000·t + 4999` of the result. Entry `(p, q)` of what it writes is the node
  MLP on row `p` of its two row blocks, that is on row `5000·t + p` of `x` and of `agg`: block `t` of `G`. Row `r` of the
  result lies in the block of point `r / 5000`, so the 20 blocks cover the array and it ends holding `G`.
-/
import proofs.«167110_j7352984011301_1_alg».proof.Proof.Gen.KernelIdeal.Value
import proofs.«167110_j7352984011301_1_alg».proof.Proof.KernelPayload
import proofs.«167110_j7352984011301_1_alg».proof.Proof.KernelHead
import proofs.«167110_j7352984011301_1_alg».proof.Proof.KernelBlocks
import proofs.«167110_j7352984011301_1_alg».proof.Proof.Spec
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx Cert.NodeMLP

variable (m : (ℓ : Loc nD τ sig) → Buf (Elt Ideal) ℓ) (ρ : Dev nD → PrngReg)

theorem off2 : (![0, 0] : Fin 2 → Nat) = fun _ => 0 := funext fun a => by fin_cases a <;> rfl
theorem off1 : (![0] : Fin 1 → Nat) = fun _ => 0 := funext fun a => by fin_cases a; rfl

/-! ## The blocks a point is given, as entries of the arguments -/

/-- Row `p` of the feature block of point `t` is row `5000·t + p` of `x`. -/
theorem iblk_x (c : Dev nD) (t : Fin cfg0.N) (p : Fin 5000) (k : Fin 64) (i : Fin 100000) (hi : i.val = 5000 * t.val + p.val) :
    (iblk m c 0 t : S5000x64.Idx → EReal) (ix2 p k) = (m ((c : Thread nD τ).loc main_arg0) : S100000x64.Idx → EReal) (ix2 i k) := by
  refine (read_rows0 t (V m c main_arg0) p k i hi).trans ?_
  rw [V_main_arg0]

/-- The neighbours' mean, as a function of `x` and the edge list: the stage both programs compute. -/
abbrev aggOf (c : Dev nD) : S100000x64.Idx → EReal :=
  Cert.ReferenceIdeal.Read.val_main_v22 (F := Ideal) (m ((c : Thread nD τ).loc main_arg0)) (m ((c : Thread nD τ).loc main_arg1))

/-- Row `p` of the neighbours' block of point `t` is row `5000·t + p` of `agg`. -/
theorem iblk_agg (c : Dev nD) (t : Fin cfg0.N) (p : Fin 5000) (k : Fin 64) (i : Fin 100000) (hi : i.val = 5000 * t.val + p.val) :
    (iblk m c 1 t : S5000x64.Idx → EReal) (ix2 p k) = aggOf m c (ix2 i k) := by
  refine (read_rows1 t (V m c main_v22) p k i hi).trans ?_
  rw [V_agg m c]

/-- The first 64×128 block is rows 0–63 of `W1`. -/
theorem iblk_w1_lo (c : Dev nD) (t : Fin cfg0.N) (k : Fin 64) (j : Fin 128) :
    (iblk m c 2 t : S64x128.Idx → EReal) (ix2 k j) = (m ((c : Thread nD τ).loc main_arg2) : S128x128.Idx → EReal) (ix2 (lo k) j) :=
  (congrFun (read_half2 t (V m c main_v23)) (ix2 k j)).trans (V_w1_lo_apply m c k j)

/-- The second 64×128 block is rows 64–127 of `W1`. -/
theorem iblk_w1_hi (c : Dev nD) (t : Fin cfg0.N) (k : Fin 64) (j : Fin 128) :
    (iblk m c 3 t : S64x128.Idx → EReal) (ix2 k j) = (m ((c : Thread nD τ).loc main_arg2) : S128x128.Idx → EReal) (ix2 (hi k) j) :=
  (congrFun (read_half3 t (V m c main_v24)) (ix2 k j)).trans (V_w1_hi_apply m c k j)

/-- The block of `b1` is `b1`. -/
theorem iblk_b1 (c : Dev nD) (t : Fin cfg0.N) :
    (iblk m c 4 t : S128.Idx → EReal) = m ((c : Thread nD τ).loc main_arg3) :=
  (read_whole4 t (V m c main_arg3)).trans (V_main_arg3 m c)

/-- The block of `W2` is `W2`. -/
theorem iblk_W2 (c : Dev nD) (t : Fin cfg0.N) :
    (iblk m c 5 t : S128x128.Idx → EReal) = m ((c : Thread nD τ).loc main_arg4) :=
  (read_whole5 t (V m c main_arg4)).trans (V_main_arg4 m c)

/-- The block of `b2` is `b2`. -/
theorem iblk_b2 (c : Dev nD) (t : Fin cfg0.N) :
    (iblk m c 6 t : S128.Idx → EReal) = m ((c : Thread nD τ).loc main_arg5) :=
  (read_whole6 t (V m c main_arg5)).trans (V_main_arg5 m c)

/-- The block of `W3` is `W3`. -/
theorem iblk_W3 (c : Dev nD) (t : Fin cfg0.N) :
    (iblk m c 7 t : S128x128.Idx → EReal) = m ((c : Thread nD τ).loc main_arg6) :=
  (read_whole7 t (V m c main_arg6)).trans (V_main_arg6 m c)

/-- The block of `b3` is `b3`. -/
theorem iblk_b3 (c : Dev nD) (t : Fin cfg0.N) :
    (iblk m c 8 t : S128.Idx → EReal) = m ((c : Thread nD τ).loc main_arg7) :=
  (read_whole8 t (V m c main_arg7)).trans (V_main_arg7 m c)

/-- The block of `W4` is `W4`. -/
theorem iblk_W4 (c : Dev nD) (t : Fin cfg0.N) :
    (iblk m c 9 t : S128x64.Idx → EReal) = m ((c : Thread nD τ).loc main_arg8) :=
  (read_whole9 t (V m c main_arg8)).trans (V_main_arg8 m c)

/-- The block of `b4` is `b4`. -/
theorem iblk_b4 (c : Dev nD) (t : Fin cfg0.N) :
    (iblk m c 10 t : S64.Idx → EReal) = m ((c : Thread nD τ).loc main_arg9) :=
  (read_whole10 t (V m c main_arg9)).trans (V_main_arg9 m c)

/-! ## What a point writes back -/

/-- The array the result should end holding: `G` of `x`, of the neighbours' mean, and of the eight parameter arrays. -/
abbrev result (c : Dev nD) : Buf (Elt Ideal) ((c : Thread nD τ).loc main_v25) :=
  G (m ((c : Thread nD τ).loc main_arg0)) (aggOf m c) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))

/-- The output window writes back the whole of what its staging buffer holds. -/
theorem out_cut (t : Fin cfg0.N) (X : S5000x64.Idx → EReal) (p : Fin 5000) (q : Fin 64) :
    (cfg0.win 11).cut (grid0.coords t) X (ix2 p q : S5000x64.Idx) = X (ix2 p q) := rfl

/-- Entry `(p, q)` of the output window's block at point `t`, read off any array, is its entry `(5000·t + p, q)`. -/
theorem read_out (t : Fin cfg0.N) (A : S100000x64.Idx → EReal) (p : Fin 5000) (q : Fin 64) (i : Fin 100000)
    (hi : i.val = 5000 * t.val + p.val) :
    (((cfg0.win 11).blk t).view.read (Elt Ideal) A : S5000x64.Idx → EReal) (ix2 p q) = A (ix2 i q) := by
  rw [View.read_apply]
  show A _ = A (ix2 i q)
  refine congrArg A (funext fun a => Fin.ext ?_)
  match a with
  | ⟨0, _⟩ => show win0_11.index t (0 : Fin 2) * 5000 + 1 * p.val = i.val; rw [(idx_rows t).2.2.2.2.1, hi]; omega
  | ⟨1, _⟩ => show win0_11.index t (1 : Fin 2) * 64 + 1 * q.val = q.val; rw [(idx_rows t).2.2.2.2.2]; omega

/-- What point `t` writes back is block `t` of `result`. -/
theorem flushed_eq (c : Dev nD) (t : Fin cfg0.N) :
    (dats m 0 c).flushed 11 t = ((cfg0.win 11).blk t).view.read (Elt Ideal) (result m c) := by
  rw [Cert.KernelIdeal.Value.flushed11]
  unfold out0_11
  rw [View.canon_unit_zero off2]
  simp only [View.ld_unit_zero (S := S5000x64) off2, View.ld_unit_zero (S := S64x128) off2, View.ld_unit_zero (S := S128x128) off2,
    View.ld_unit_zero (S := S128x64) off2, View.ld_unit_zero (S := S128) off1, View.ld_unit_zero (S := S64) off1]
  refine funext fun (y : S5000x64.Idx) => ?_
  obtain ⟨p, q, rfl⟩ : ∃ (p : Fin 5000) (q : Fin 64), y = ix2 p q := ⟨y 0, y 1, eq_ix2 y⟩
  have ht : t.val < 20 := Nat.lt_of_lt_of_eq t.isLt N_0
  have hp : p.val < 5000 := p.isLt
  obtain ⟨i, hi⟩ : ∃ i : Fin 100000, i.val = 5000 * t.val + p.val := ⟨⟨5000 * t.val + p.val, by omega⟩, rfl⟩
  rw [read_out t (result m c) p q i hi, out_cut]
  refine (payload_apply (iblk m c 0 t) (iblk m c 1 t) (iblk m c 2 t) (iblk m c 3 t) (iblk m c 4 t) (iblk m c 5 t) (iblk m c 6 t)
    (iblk m c 7 t) (iblk m c 8 t) (iblk m c 9 t) (iblk m c 10 t) p q
    (fun k => (m ((c : Thread nD τ).loc main_arg0) : S100000x64.Idx → EReal) (ix2 i k))
    (fun k => aggOf m c (ix2 i k))
    (m ((c : Thread nD τ).loc main_arg2))
    (fun k => iblk_x m c t p k i hi) (fun k => iblk_agg m c t p k i hi)
    (fun k j => iblk_w1_lo m c t k j) (fun k j => iblk_w1_hi m c t k j)).trans ?_
  rw [iblk_b1 m c t, iblk_W2 m c t, iblk_b2 m c t, iblk_W3 m c t, iblk_b3 m c t, iblk_W4 m c t, iblk_b4 m c t]
  rfl

end Cert.KernelIdeal.Hand

end
-- ==== Proof.KernelArray.lean ====
/-
  The 20 blocks cover the result array.

  Point `t` writes rows `5000·t … 5000·t + 4999` and all 64 columns. Row `r` of the array, `r < 100000`, lies in the block of
  point `r / 5000 < 20`, since `5000·(r / 5000) ≤ r < 5000·(r / 5000) + 5000`. Every point writes its block back, and each
  writes the matching block of `result`, so after the last point the array is `result`.
-/
import proofs.«167110_j7352984011301_1_alg».proof.Proof.Gen.KernelIdeal.Value
import proofs.«167110_j7352984011301_1_alg».proof.Proof.KernelValue
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx Cert.NodeMLP

variable (m : (ℓ : Loc nD τ sig) → Buf (Elt Ideal) ℓ) (ρ : Dev nD → PrngReg)

/-- An index is in point `t`'s output block iff each coordinate is in the block's range on its axis. -/
theorem mem_out_blk (t : Fin cfg0.N) (i : S100000x64.Idx) :
    i ∈ ((cfg0.win 11).blk t).view.set ↔ ∀ a : Fin 2, win0_11.index t a * S5000x64.size a ≤ (i a).val ∧ (i a).val < win0_11.index t a * S5000x64.size a + S5000x64.size a := by
  show i ∈ ((View.whole main_v25).slice (win0_11.rect t)).set ↔ _
  rw [View.set_slice_whole, Rect.mem_set_unit]
  exact Iff.rfl

/-- Row `r` of the result is written by point `r / 5000`. -/
theorem covered (i : S100000x64.Idx) : ∃ t : Fin cfg0.N, (cfg0.win 11).flush t = true ∧ i ∈ ((cfg0.win 11).blk t).view.set := by
  have h0 : (i 0).val < 100000 := (i 0).isLt
  have h1 : (i 1).val < 64 := (i 1).isLt
  have hlt : (i 0).val / 5000 < cfg0.N := Nat.lt_of_lt_of_eq (by omega : (i 0).val / 5000 < 20) N_0.symm
  refine ⟨⟨(i 0).val / 5000, hlt⟩, flush0_11 _, ?_⟩
  rw [mem_out_blk]
  obtain ⟨-, -, -, -, e0, e1⟩ := idx_rows ⟨(i 0).val / 5000, hlt⟩
  intro a
  match a with
  | ⟨0, _⟩ =>
    show win0_11.index ⟨(i 0).val / 5000, hlt⟩ (0 : Fin 2) * 5000 ≤ (i 0).val ∧ (i 0).val < win0_11.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win0_11.index ⟨(i 0).val / 5000, hlt⟩ (1 : Fin 2) * 64 ≤ (i 1).val ∧ (i 1).val < win0_11.index ⟨(i 0).val / 5000, hlt⟩ (1 : Fin 2) * 64 + 64
    rw [e1]
    omega

/-- So the result array ends holding `result`. -/
theorem final (c : Dev nD) : (dats m 0 c).arrAt 11 cfg0.N = result m c :=
  (dats m 0 c).arrAt_eq_of_cover 11 (result m c) (fun t _ => flushed_eq m c t) covered

/-- The run, read: the result array at `result`, every argument unchanged. -/
theorem run : θ_run defs (onTc (τ := τ) (main (F := Ideal))) ⟨m, fun _ => 0, ρ⟩ fun r => ∀ c : Dev nD,
      r.2.mem ((c : Thread nD τ).loc main_v25) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Cert.KernelIdeal.Value.run_blocks m ρ)

end Cert.KernelIdeal.Hand

end
-- ==== Proof.lean ====
/-
  A graph network layer: for each of 100000 nodes, the mean of its in-neighbours' 64 features is joined to its own 64
  features and sent through a four-layer perceptron (128 → 128 → 128 → 128 → 64, a rectifier after each of the first three
  layers). Both programs compute the neighbours' mean `agg` with the same host operations; they differ in the first layer.

  The reference multiplies the 128-wide concatenation `[x, agg]` with `W1`. The kernel, on blocks of 5000 nodes, multiplies
  `x` with rows 0–63 of `W1` and `agg` with rows 64–127 and adds the two products. On the extended reals the two agree
  entry by entry, because a sum over 128 indices is the sum over the lower 64 plus the sum over the upper 64
  (`Cert.NodeMLP.sum_lo_hi`): only commutativity and associativity of addition are used, so the claim holds at every
  input, infinite entries included, and the precondition is never opened. A change of float format is the identity
  there and a matrix product into a zero accumulator is the plain sum, so the remaining layers are the same sums on
  both sides.

  `Proof/Spec.lean` states the network on one node (`rowOut`) and the result array `G`; `Proof/RefValue.lean` shows the
  reference's result is `G`; `Proof/KernelPayload.lean` reads the kernel body's stored block at an entry;
  `Proof/KernelHead.lean` says what the region finds in the arrays the host operations before it write;
  `Proof/KernelBlocks.lean` reads each block a grid point is given as entries of the array it is cut from;
  `Proof/KernelValue.lean` shows that a point writes back its block of `G`; `Proof/KernelArray.lean` that the 20 blocks cover
  the array. Here the five claims are assembled: the three
  runs (each program terminates without a fault and leaves its arguments as they were), the idealization's ledger,
  which is empty, and the equality of the two results.
-/
import proofs.«167110_j7352984011301_1_alg».proof.Defs
import proofs.«167110_j7352984011301_1_alg».proof.Proof.Gen.Kernel
import proofs.«167110_j7352984011301_1_alg».proof.Proof.Gen.Kernel.Skeleton
import proofs.«167110_j7352984011301_1_alg».proof.Proof.Gen.Kernel.Launch
import proofs.«167110_j7352984011301_1_alg».proof.Proof.Gen.Kernel.Points
import proofs.«167110_j7352984011301_1_alg».proof.Proof.Gen.Kernel.Frame
import proofs.«167110_j7352984011301_1_alg».proof.Proof.Gen.KernelIdeal
import proofs.«167110_j7352984011301_1_alg».proof.Proof.Gen.KernelIdeal.Skeleton
import proofs.«167110_j7352984011301_1_alg».proof.Proof.Gen.KernelIdeal.Launch
import proofs.«167110_j7352984011301_1_alg».proof.Proof.Gen.KernelIdeal.Points
import proofs.«167110_j7352984011301_1_alg».proof.Proof.Gen.KernelIdeal.Frame
import proofs.«167110_j7352984011301_1_alg».proof.Proof.Gen.ReferenceIdeal
import proofs.«167110_j7352984011301_1_alg».proof.Proof.Gen.KernelIdeal.Value
import proofs.«167110_j7352984011301_1_alg».proof.Proof.Gen.ReferenceIdeal.Run
import proofs.«167110_j7352984011301_1_alg».proof.Proof.Gen.ReferenceIdeal.Read
import proofs.«167110_j7352984011301_1_alg».proof.Proof.Gen.Pre_finite_inputs
import proofs.«167110_j7352984011301_1_alg».proof.Proof.RefValue
import proofs.«167110_j7352984011301_1_alg».proof.Proof.KernelArray
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the ten arguments both runs end with the result at `G` of `x`, the neighbours' mean and
    the eight parameter arrays. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9⟩ := hagree c
  rw [Cert.ReferenceIdeal.Read.val_main_v42_eq, Cert.ReferenceIdeal.RefValue.result_eq, e0, e1, e2, e3, e4, e5, e6, e7, e8, e9]
  all_goals rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
